-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "scale" .f32 0x3BB281F1#32 ((3354243422137 / 615726501068800 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3 : Shape := ⟨2, ![4096, 3]⟩
abbrev S4096x1 : Shape := ⟨2, ![4096, 1]⟩
abbrev S4096x4096 : Shape := ⟨2, ![4096, 4096]⟩
abbrev S_ : Shape := ⟨0, ![]⟩

class Facts : Prop where
  bcast_S_S4096x3 : S_.BroadcastsInDim S4096x3 (![] : Fin 0 → Fin S4096x3.rank)
  reducesTo_S4096x3_S_d0_1 : S4096x3.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg1 : FVec F S4096x1 .f32) (main_arg2 : FVec F S4096x4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_cst_6 : FVec F S_ .f32 := constant S_ .f32 0x00000000#32
  let main_v19 : FVec F S4096x1 .f32 := broadcastInDim S4096x1 ![] bcast_S_S4096x1 main_cst_6
  let main_v20 : IVec S4096x1 1 := cmpf .ogt main_arg1 main_v19
  let main_c_7 : IVec S_ 1 := constantI S_ 1 1#1
  let main_v21 : IVec S_ 1 := (fun x v => Host.reduce IntOp.andi x v reducesTo_S4096x1_S_d0_1 h_S_) main_v20 main_c_7
  let main_v22 : IVec S_ 1 := andi main_v18 main_v21
  let main_cst_8 : FVec F S_ .f32 := constant S_ .f32 0x00000000#32
  let main_v23 : FVec F S4096x4096 .f32 := broadcastInDim S4096x4096 ![] bcast_S_S4096x4096 main_cst_8
  let main_v24 : IVec S4096x4096 1 := cmpf .ogt main_arg2 main_v23
  let main_c_9 : IVec S_ 1 := constantI S_ 1 1#1
  let main_v25 : IVec S_ 1 := (fun x v => Host.reduce IntOp.andi x v reducesTo_S4096x4096_S_d0_1 h_S_) main_v24 main_c_9
  let main_v26 : IVec S_ 1 := andi main_v22 main_v25
  main_v26

def fn {F : FTy → Type} [FloatOps F] (main_arg0 : FVec F S4096x3 .f32) (main_arg1 : FVec F S4096x1 .f32) (main_arg2 : FVec F S4096x4096 .f32) (main_arg3 : FVec F S4096x4096 .f32) : IVec S_ 1 :=
  let main_v0 : FVec F S4096x3 .f32 := Host.absf main_arg0
  let main_cst : FVec F S_ .f32 := constant S_ .f32 0x7F800000#32
  let main_v1 : FVec F S4096x3 .f32 := broadcastInDim S4096x3 ![] bcast_S_S4096x3 main_cst
  let main_v2 : IVec S4096x3 1 := cmpf .olt main_v0 main_v1
  let main_c : IVec S_ 1 := constantI S_ 1 1#1
  let main_v3 : IVec S_ 1 := (fun x v => Host.reduce IntOp.andi x v reducesTo_S4096x3_S_d0_1 h_S_) main_v2 main_c
  let main_v4 : FVec F S4096x1 .f32 := Host.absf main_arg1
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg1 main_arg2 main_v13 main_v16
-- ==== Kernel.lean ====
abbrev S4096x3 : Shape := ⟨2, ![4096, 3]⟩
abbrev S4096x1 : Shape := ⟨2, ![4096, 1]⟩
abbrev S4096x4096 : Shape := ⟨2, ![4096, 4096]⟩
abbrev S512x3 : Shape := ⟨2, ![512, 3]⟩
abbrev S512x1 : Shape := ⟨2, ![512, 1]⟩
abbrev S512x4096 : Shape := ⟨2, ![512, 4096]⟩
abbrev S512 : Shape := ⟨1, ![512]⟩

abbrev nBuf : Space → Nat
  | .hbm => 5
  | .vmem => 8
  | .smem => 0
  | _ => 0

abbrev bufTy : (tb : Table) → Fin (tcTables nBuf tb) → BufTy
  | .hbm, ⟨0, _⟩ => ⟨S4096x3, .f32⟩
  | .hbm, ⟨1, _⟩ => ⟨S4096x1, .f32⟩
  | .hbm, ⟨2, _⟩ => ⟨S4096x4096, .f32⟩
  | .hbm, ⟨3, _⟩ => ⟨S4096x4096, .f32⟩
  | .hbm, ⟨4, _⟩ => ⟨S4096x1, .f32⟩
  | .local _ .vmem, ⟨0, _⟩ => ⟨S512x3, .f32⟩
  | .local _ .vmem, ⟨1, _⟩ => ⟨S512x3, .f32⟩
  | .local _ .vmem, ⟨2, _⟩ => ⟨S512x1, .f32⟩
  | .local _ .vmem, ⟨3, _⟩ => ⟨S512x1, .f32⟩
  | .local _ .vmem, ⟨4, _⟩ => ⟨S512x4096, .f32⟩
  | .local _ .vmem, ⟨5, _⟩ => ⟨S512x4096, .f32⟩
  | .local _ .vmem, ⟨6, _⟩ => ⟨S512x1, .f32⟩
  | .local _ .vmem, ⟨7, _⟩ => ⟨S512x1, .f32⟩
  | _, _ => ⟨S4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S512x4096_S512x4096_0_0 : ∀ a, (![0, 0] : Fin 2 → Nat) a + S512x4096.size a ≤ S512x4096.size a
  h_S512x4096 : 0 < S512x4096.numel
  inb_S512x1_S512x1_0_0 : ∀ a, (![0, 0] : Fin 2 → Nat) a + S512x1.size a ≤ S512x1.size a
  h_S512x1 : 0 < S512x1.numel
  reduces_S512x4096_S512 : S512x4096.Reduces [1] S512
  shapeCasts_S512_S512x1 : S512.ShapeCasts S512x1
  slices_S512x4096_o0_0_S512x1 : S512x4096.Slices ![0, 0] S512x1
  slices_S512x4096_o0_4095_S512x1 : S512x4096.Slices ![0, 4095] S512x1
  inb_S512x3_S512x1_0_0 : ∀ a, (![0, 0] : Fin 2 → Nat) a + S512x1.size a ≤ S512x3.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3.size a ≤ S4096x3.size a
  hwx0_0 : ∀ i : grid0.Coords, EltTy.bits .f32 = 32 ∨ (Rect.block (s := S4096x3) S512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .f32 = 32 ∨ (Rect.block (s := S4096x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .f32 = 32 ∨ (Rect.block (s := S4096x4096) S512x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)

variable [Facts₀]

abbrev win0_0 : Pipeline.Window sig grid0 :=
  Pipeline.Window.ofSpec (Memref.whole main_arg0) S512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x3 : Shape := ⟨2, ![4096, 3]⟩
abbrev S4096x1 : Shape := ⟨2, ![4096, 1]⟩
abbrev S4096x4096 : Shape := ⟨2, ![4096, 4096]⟩
abbrev S_ : Shape := ⟨0, ![]⟩
abbrev S4096x4095 : Shape := ⟨2, ![4096, 4095]⟩
abbrev S4096 : Shape := ⟨1, ![4096]⟩

abbrev nBuf : Space → Nat
  | .hbm => 39
  | .vmem => 0
  | .smem => 0
  | _ => 0

abbrev bufTy : (tb : Table) → Fin (tcTables nBuf tb) → BufTy
  | .hbm, ⟨0, _⟩ => ⟨S4096x3, .f32⟩
  | .hbm, ⟨1, _⟩ => ⟨S4096x1, .f32⟩
  | .hbm, ⟨2, _⟩ => ⟨S4096x4096, .f32⟩
  | .hbm, ⟨3, _⟩ => ⟨S4096x4096, .f32⟩
  | .hbm, ⟨4, _⟩ => ⟨S4096x1, .f32⟩
  | .hbm, ⟨5, _⟩ => ⟨S_, .f32⟩
  | .hbm, ⟨6, _⟩ => ⟨S4096x1, .f32⟩
  | .hbm, ⟨7, _⟩ => ⟨S4096x1, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4095, .f32⟩
  | .hbm, ⟨15, _⟩ => ⟨S4096x4095, .f32⟩
  | .hbm, ⟨16, _⟩ => ⟨S4096x4095, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  slices_S4096x3_S4096x1_0_0 : S4096x3.Slices ![0, 0] S4096x1
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  slices_S4096x4096_S4096x4095_0_0 : S4096x4096.Slices ![0, 0] S4096x4095
  slices_S4096x4096_S4096x4095_0_1 : S4096x4096.Slices ![0, 1] S4096x4095
  reducesTo_S4096x4095_S4096_d1 : S4096x4095.ReducesTo [1] S4096
  h_S_ : 0 < S_.numel
  bcast_S4096_S4096x1_0 : S4096.BroadcastsInDim S4096x1 (![0] : Fin 1 → Fin S4096x1.rank)

variable [Facts₀]

class Facts : Prop extends Facts₀ where

variable [Facts]
-- ==== Proof.Consts.lean ====
/-
  The float literals of the two programs, as the extended reals their words denote, and the rational the
  kernel's folded scale is read as.  Every word here is a finite binary fraction; the three that round a
  decimal (1.04, 1.4, 0.55) are stated as the exact fractions their 24-bit significands encode, because the
  reference computes with exactly those numbers.
-/
import Idealize.ShloMosaic.PureOps.Ideal

noncomputable section

namespace Cert.Trapz.Consts

open Idealize.ShloMosaic

/-- `+0.0`: the initial value of the reference's row sum. -/
theorem w_zero : Ideal.ofBits .f32 0x00000000#32 = ((0 : ℝ) : EReal) := by
  simp [Ideal.ofBits, Ideal.ieee]

/-- The `+inf` word, against which the precondition compares each input's magnitude. -/
theorem w_inf : Ideal.ofBits .f32 0x7F800000#32 = ⊤ := by
  simp [Ideal.ofBits, Ideal.ieee]

/-- `5.0`: the factor on the first perfusion parameter. -/
theorem w_five : Ideal.ofBits .f32 0x40A00000#32 = ((5 : ℝ) : EReal) := by
  simp [Ideal.ofBits, Ideal.ieee, -EReal.coe_mul]; norm_num

/-- `2.0`: the kernel doubles the row sum. -/
theorem w_two : Ideal.ofBits .f32 0x40000000#32 = ((2 : ℝ) : EReal) := by
  simp [Ideal.ofBits, Ideal.ieee, -EReal.coe_mul]; norm_num

/-- `-1/32`: minus the reciprocal of the echo time, on both sides. -/
theorem w_negInvTE : Ideal.ofBits .f32 0xBD000000#32 = ((-(1 / 32) : ℝ) : EReal) := by
  simp [Ideal.ofBits, Ideal.ieee, -EReal.coe_mul]; norm_num

/-- `4096.0`: the number of time points, by which the kernel multiplies `log T10`. -/
theorem w_nT : Ideal.ofBits .f32 0x45800000#32 = ((4096 : ℝ) : EReal) := by
  simp [Ideal.ofBits, Ideal.ieee, -EReal.coe_mul]; norm_num

/-- `0.5`: half the time step. -/
theorem w_half : Ideal.ofBits .f32 0x3F000000#32 = ((1 / 2 : ℝ) : EReal) := by
  simp [Ideal.ofBits, Ideal.ieee, -EReal.coe_mul]; norm_num

/-- `100.0`: the reference's first divisor. -/
theorem w_hundred : Ideal.ofBits .f32 0x42C80000#32 = ((100 : ℝ) : EReal) := by
  simp [Ideal.ofBits, Ideal.ieee, -EReal.coe_mul]; norm_num

/-- The reference's `1.04`: the binary fraction 8724152 / 2^23. -/
theorem w_ro : Ideal.ofBits .f32 0x3F851EB8#32 = ((8724152 / 8388608 : ℝ) : EReal) := by
  simp [Ideal.ofBits, Ideal.ieee, -EReal.coe_mul]; norm_num

/-- The reference's `1.4`: the binary fraction 11744051 / 2^23. -/
theorem w_kav : Ideal.ofBits .f32 0x3FB33333#32 = ((11744051 / 8388608 : ℝ) : EReal) := by
  simp [Ideal.ofBits, Ideal.ieee, -EReal.coe_mul]; norm_num

/-- The reference's `0.55`: the binary fraction 9227469 / 2^24. -/
theorem w_oneMinusHlv : Ideal.ofBits .f32 0x3F0CCCCD#32 = ((9227469 / 16777216 : ℝ) : EReal) := by
  simp [Ideal.ofBits, Ideal.ieee, -EReal.coe_mul]; norm_num

/-- `0.75`: the reference's last divisor. -/
theorem w_oneMinusHsv : Ideal.ofBits .f32 0x3F400000#32 = ((3 / 4 : ℝ) : EReal) := by
  simp [Ideal.ofBits, Ideal.ieee, -EReal.coe_mul]; norm_num

/-- The value the kernel's folded scale is read as is the reference's chain of its own literals:
    `((1/100) · 1.04) / 1.4 · 0.55 / 0.75` with each literal the fraction above. -/
theorem scale_eq :
    (3354243422137 / 615726501068800 : ℝ)
      = (1 / 100) * (8724152 / 8388608) * (1 / (11744051 / 8388608)) * (9227469 / 16777216) * (1 / (3 / 4)) := by
  norm_num

end Cert.Trapz.Consts

end
-- ==== Proof.LibTrapezoid.lean ====
/-
  The trapezoid rule's sum of adjacent pairs, telescoped: over `n + 1` samples `f 0, …, f n`,
  `∑_{k < n} (f k + f (k+1)) = 2 · ∑_{k ≤ n} f k − f 0 − f n`.
  Every interior sample is met twice (once as a right end, once as a left end), the two ends once.
  Stated over any commutative ring; Mathlib only.
-/
import Mathlib.Algebra.BigOperators.Fin
import Mathlib.Tactic.Ring
import Mathlib.Tactic.Linarith

namespace Cert.Trapz

/-- The sum of adjacent pairs of `n + 1` samples is twice the whole sum less the two end samples. -/
theorem sum_adjacent_pairs {R : Type*} [CommRing R] (n : ℕ) (f : Fin (n + 1) → R) :
    ∑ k : Fin n, (f k.castSucc + f k.succ) = 2 * ∑ k : Fin (n + 1), f k - f 0 - f (Fin.last n) := by
  rw [Finset.sum_add_distrib]
  have hl : ∑ k : Fin (n + 1), f k = ∑ k : Fin n, f k.castSucc + f (Fin.last n) := Fin.sum_univ_castSucc f
  have hr : ∑ k : Fin (n + 1), f k = f 0 + ∑ k : Fin n, f k.succ := Fin.sum_univ_succ f
  have e1 : ∑ k : Fin n, f k.castSucc = ∑ k : Fin (n + 1), f k - f (Fin.last n) := by rw [hl]; ring
  have e2 : ∑ k : Fin n, f k.succ = ∑ k : Fin (n + 1), f k - f 0 := by rw [hr]; ring
  rw [e1, e2]; ring

end Cert.Trapz
-- ==== Proof.RowLaw.lean ====
/-
  One voxel's row, over the reals.  With `c 0, …, c 4095 > 0` the plasma concentrations of the row, `τ > 0` its
  relaxation time and `x` its first perfusion parameter, write `a k = −(1/32) · log (c k / τ)`.

  The reference integrates `a` by the trapezoid rule with unit step, `(∑_{k < 4095} (a k + a (k+1))) · ½`, and
  scales by `5x/100 · 1.04 / 1.4 · 0.55 / 0.75` one operation at a time.

  The kernel never forms the quotient: it uses `log (c k / τ) = log (c k) − log τ` (both positive), so that
  `∑_k a k = −(1/32) (∑_k log (c k) − 4096 log τ)`, and the telescoped trapezoid sum
  `∑_{k < 4095} (a k + a (k+1)) = 2 ∑_k a k − a 0 − a 4095`; and it multiplies by ONE constant, the product of the
  reference's five.  The two are the same real number.
-/
import proofs.«164504_j1047972020561_2_alg».proof.Proof.Consts
import proofs.«164504_j1047972020561_2_alg».proof.Proof.LibTrapezoid
import Mathlib.Analysis.SpecialFunctions.Log.Basic

noncomputable section

namespace Cert.Trapz

/-- The kernel's row: the scale `sc` in one factor, the integral as twice the row's sum less its two ends. -/
def kernelRow (sc x τ : ℝ) (c : Fin 4096 → ℝ) : ℝ :=
  ((x * 5) * sc) *
    (((2 * (-(1 / 32) * ((∑ k : Fin 4096, Real.log (c k)) - 4096 * Real.log τ))
        - -(1 / 32) * (Real.log (c 0) - Real.log τ))
        - -(1 / 32) * (Real.log (c (Fin.last 4095)) - Real.log τ)) * (1 / 2))

/-- The reference's row: the five scale factors applied in turn (a quotient by a nonzero constant written as the
    product with its reciprocal), the integral as the sum of adjacent pairs from the initial value `0`. -/
def referenceRow (x τ : ℝ) (c : Fin 4096 → ℝ) : ℝ :=
  ((((((x * 5) * (1 / 100)) * (8724152 / 8388608)) * (1 / (11744051 / 8388608))) * (9227469 / 16777216)) * (1 / (3 / 4))) *
    ((0 + ∑ k : Fin 4095, (-(1 / 32) * Real.log (c k.castSucc * (1 / τ)) + -(1 / 32) * Real.log (c k.succ * (1 / τ)))) * (1 / 2))

/-- On positive data the two rows are one number, when the kernel's scale is the product of the reference's factors. -/
theorem row_law (x τ : ℝ) (c : Fin 4096 → ℝ) (hτ : 0 < τ) (hc : ∀ k, 0 < c k) :
    referenceRow x τ c = kernelRow (3354243422137 / 615726501068800) x τ c := by
  have hlog : ∀ k : Fin 4096, Real.log (c k * (1 / τ)) = Real.log (c k) - Real.log τ := fun k => by
    rw [mul_one_div, Real.log_div (hc k).ne' hτ.ne']
  have hpairs : ∑ k : Fin 4095, (-(1 / 32) * (Real.log (c k.castSucc) - Real.log τ) + -(1 / 32) * (Real.log (c k.succ) - Real.log τ))
      = 2 * ∑ k : Fin 4096, -(1 / 32) * (Real.log (c k) - Real.log τ)
          - -(1 / 32) * (Real.log (c 0) - Real.log τ) - -(1 / 32) * (Real.log (c (Fin.last 4095)) - Real.log τ) :=
    sum_adjacent_pairs 4095 (fun k => -(1 / 32) * (Real.log (c k) - Real.log τ))
  have hsum : ∑ k : Fin 4096, -(1 / 32 : ℝ) * (Real.log (c k) - Real.log τ)
      = -(1 / 32) * ((∑ k : Fin 4096, Real.log (c k)) - 4096 * Real.log τ) := by
    rw [← Finset.mul_sum, Finset.sum_sub_distrib, Finset.sum_const, Finset.card_univ, Fintype.card_fin, nsmul_eq_mul]
    norm_num
  unfold referenceRow kernelRow
  simp only [hlog]
  rw [hpairs, hsum, Consts.scale_eq]
  ring

end Cert.Trapz

end
-- ==== Proof.RowIdeal.lean ====
/-
  The two rows as the programs compute them, over the extended reals: the same formulas as in RowLaw, with each float
  literal the word the program carries, `log` the extended-real logarithm and a quotient the extended-real quotient.
  On a row of positive reals nothing leaves the reals: `log` of a positive real is its real logarithm, a quotient by a
  nonzero real is the product with the reciprocal, and sums, differences and products of reals are real.  So each
  extended-real row is the coercion of its real row, and by the row law the two agree.
-/
import proofs.«164504_j1047972020561_2_alg».proof.Proof.RowLaw
import Idealize.ShloMosaic.PureOps.Ideal

noncomputable section

namespace Cert.Trapz

open Idealize.ShloMosaic

/-- A finite sum of reals, coerced term by term, is the coerced sum. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The extended-real logarithm of a positive real is its real logarithm. -/
theorem log_coe_pos {r : ℝ} (h : 0 < r) : Ideal.log ((r : ℝ) : EReal) = ((Real.log r : ℝ) : EReal) := by
  rw [Ideal.log_coe, if_neg (not_le.mpr h)]

/-- The kernel's row over the extended reals: `x` the first perfusion parameter, `τ` the relaxation time, `c` the row
    of concentrations, `sc` the value of the folded scale. -/
def kernelRowE (sc x τ : EReal) (c : Fin 4096 → EReal) : EReal :=
  ((x * Ideal.ofBits .f32 0x40A00000#32) * sc) *
    (((Ideal.ofBits .f32 0x40000000#32 * (Ideal.ofBits .f32 0xBD000000#32 *
          ((∑ k : Fin 4096, Ideal.log (c k)) - Ideal.ofBits .f32 0x45800000#32 * Ideal.log τ))
        - Ideal.ofBits .f32 0xBD000000#32 * (Ideal.log (c 0) - Ideal.log τ))
        - Ideal.ofBits .f32 0xBD000000#32 * (Ideal.log (c (Fin.last 4095)) - Ideal.log τ))
      * Ideal.ofBits .f32 0x3F000000#32)

/-- The reference's row over the extended reals. -/
def referenceRowE (x τ : EReal) (c : Fin 4096 → EReal) : EReal :=
  Ideal.div (Ideal.div (Ideal.div (x * Ideal.ofBits .f32 0x40A00000#32) (Ideal.ofBits .f32 0x42C80000#32)
      * Ideal.ofBits .f32 0x3F851EB8#32) (Ideal.ofBits .f32 0x3FB33333#32) * Ideal.ofBits .f32 0x3F0CCCCD#32)
      (Ideal.ofBits .f32 0x3F400000#32) *
    ((Ideal.ofBits .f32 0x00000000#32 + ∑ k : Fin 4095,
        (Ideal.ofBits .f32 0xBD000000#32 * Ideal.log (Ideal.div (c k.castSucc) τ)
          + Ideal.ofBits .f32 0xBD000000#32 * Ideal.log (Ideal.div (c k.succ) τ)))
      * Ideal.ofBits .f32 0x3F000000#32)

/-- On positive reals the kernel's extended-real row is its real row. -/
theorem kernelRowE_coe (sc x τ : ℝ) (c : Fin 4096 → ℝ) (hτ : 0 < τ) (hc : ∀ k, 0 < c k) :
    kernelRowE (sc : EReal) (x : EReal) (τ : EReal) (fun k => ((c k : ℝ) : EReal)) = ((kernelRow sc x τ c : ℝ) : EReal) := by
  have hl : ∀ k, Ideal.log ((c k : ℝ) : EReal) = ((Real.log (c k) : ℝ) : EReal) := fun k => log_coe_pos (hc k)
  unfold kernelRowE kernelRow
  simp only [Consts.w_five, Consts.w_two, Consts.w_negInvTE, Consts.w_nT, Consts.w_half, log_coe_pos hτ, hl, coe_sum,
    ← EReal.coe_mul, ← EReal.coe_sub]

/-- On positive reals the reference's extended-real row is its real row. -/
theorem referenceRowE_coe (x τ : ℝ) (c : Fin 4096 → ℝ) (hτ : 0 < τ) (hc : ∀ k, 0 < c k) :
    referenceRowE (x : EReal) (τ : EReal) (fun k => ((c k : ℝ) : EReal)) = ((referenceRow x τ c : ℝ) : EReal) := by
  have hl : ∀ k, Ideal.log ((c k * (1 / τ) : ℝ) : EReal) = ((Real.log (c k * (1 / τ)) : ℝ) : EReal) :=
    fun k => log_coe_pos (mul_pos (hc k) (one_div_pos.mpr hτ))
  unfold referenceRowE referenceRow
  simp only [Consts.w_five, Consts.w_zero, Consts.w_negInvTE, Consts.w_half, Consts.w_hundred, Consts.w_ro, Consts.w_kav,
    Consts.w_oneMinusHlv, Consts.w_oneMinusHsv,
    Ideal.div_coe (by norm_num : (100 : ℝ) ≠ 0), Ideal.div_coe (by norm_num : (11744051 / 8388608 : ℝ) ≠ 0),
    Ideal.div_coe (by norm_num : (3 / 4 : ℝ) ≠ 0), Ideal.div_coe hτ.ne',
    ← EReal.coe_mul, hl, ← EReal.coe_add, coe_sum]

/-- So on positive reals the two extended-real rows are equal, when the folded scale is read as the product of the
    reference's factors. -/
theorem rowE_eq (x τ : ℝ) (c : Fin 4096 → ℝ) (hτ : 0 < τ) (hc : ∀ k, 0 < c k) :
    referenceRowE (x : EReal) (τ : EReal) (fun k => ((c k : ℝ) : EReal))
      = kernelRowE (((3354243422137 / 615726501068800 : ℝ)) : EReal) (x : EReal) (τ : EReal) (fun k => ((c k : ℝ) : EReal)) := by
  rw [referenceRowE_coe x τ c hτ hc, kernelRowE_coe _ x τ c hτ hc, row_law x τ c hτ hc]

end Cert.Trapz

end
-- ==== Proof.Spec.lean ====
/-
  The result array as ONE function of the argument arrays.  Entry `(r, 0)` of the `[4096, 1]` result depends on row `r`
  only: on `param (r, 0)`, on `T10 (r, 0)` and on the 4096 entries `cp (r, ·)`.  `G` is the kernel's row formula of those,
  `Rf` the reference's; where every `T10` and `cp` entry is a positive real and every `param` entry a real, the two arrays
  are equal (RowIdeal's `rowE_eq`, row by row).
-/
import proofs.«164504_j1047972020561_2_alg».proof.Proof.RowIdeal
import Idealize.ShloMosaic.Lib.ValueIdx

noncomputable section

namespace Cert.Trapz

open Idealize.ShloMosaic Idealize.ShloMosaic.ValueIdx

/-- The perfusion parameters, `[4096, 3]`. -/
abbrev SParam : Shape := ⟨2, ![4096, 3]⟩
/-- A column, `[4096, 1]`: the relaxation times, and the result. -/
abbrev SCol : Shape := ⟨2, ![4096, 1]⟩
/-- The concentrations, `[4096, 4096]`: a row per voxel, a column per time point. -/
abbrev SCp : Shape := ⟨2, ![4096, 4096]⟩

/-- The row of an index of a column. -/
def rowOf (i : SCol.Idx) : Fin 4096 := ⟨(i 0).val, (i 0).isLt⟩

/-- The kernel's result array: its row formula at each row, with `sc` the value of the folded scale. -/
def G (sc : EReal) (param : SParam.Idx → EReal) (T10 : SCol.Idx → EReal) (cp : SCp.Idx → EReal) : SCol.Idx → EReal :=
  fun i => kernelRowE sc (param (ix2 (rowOf i) (0 : Fin 3))) (T10 (ix2 (rowOf i) (0 : Fin 1)))
    (fun k : Fin 4096 => cp (ix2 (rowOf i) k))

/-- The reference's result array: its row formula at each row. -/
def Rf (param : SParam.Idx → EReal) (T10 : SCol.Idx → EReal) (cp : SCp.Idx → EReal) : SCol.Idx → EReal :=
  fun i => referenceRowE (param (ix2 (rowOf i) (0 : Fin 3))) (T10 (ix2 (rowOf i) (0 : Fin 1)))
    (fun k : Fin 4096 => cp (ix2 (rowOf i) k))

/-- The value the kernel's folded scale is read as. -/
abbrev scaleValue : EReal := ((3354243422137 / 615726501068800 : ℝ) : EReal)

/-- Where `param` is real and `T10`, `cp` are positive reals, entry by entry, the reference's array is the kernel's. -/
theorem Rf_eq_G (param : SParam.Idx → EReal) (T10 : SCol.Idx → EReal) (cp : SCp.Idx → EReal)
    (hp : ∀ j, ∃ r : ℝ, param j = (r : EReal))
    (hT : ∀ j, ∃ r : ℝ, 0 < r ∧ T10 j = (r : EReal))
    (hc : ∀ j, ∃ r : ℝ, 0 < r ∧ cp j = (r : EReal)) :
    Rf param T10 cp = G scaleValue param T10 cp := by
  funext i
  obtain ⟨x, hx⟩ := hp (ix2 (rowOf i) (0 : Fin 3))
  obtain ⟨τ, hτ, hτe⟩ := hT (ix2 (rowOf i) (0 : Fin 1))
  choose c hcpos hce using fun k : Fin 4096 => hc (ix2 (rowOf i) k)
  have hrow : (fun k : Fin 4096 => cp (ix2 (rowOf i) k)) = fun k => ((c k : ℝ) : EReal) := funext hce
  unfold Rf G
  rw [hx, hτe, hrow]
  exact rowE_eq x τ c hτ hcpos

end Cert.Trapz

end
-- ==== Proof.KernelBlock.lean ====
/-
  One grid point of the kernel.  The body reads three blocks — 512 rows of `param`, of `T10` and of `cp` — and stores one
  `[512, 1]` block.  Entry `(p, 0)` of the stored block is the kernel's row formula of row `p` of the three blocks: the
  lane sum of `log cp` along the row, the row's first and last logarithms, `log T10 (p, 0)`, and `param (p, 0)`.
  (The generated value leg already reads the body's slices, shape cast and broadcasts at an index; what is added here
  is the lane sum as a sum over the row, and the indices in coordinates.)
-/
import proofs.«164504_j1047972020561_2_alg».proof.Proof.Spec
import proofs.«164504_j1047972020561_2_alg».proof.Proof.Gen.KernelIdeal.Value
import Idealize.ShloMosaic.PureOps.Ideal.Laws
import Idealize.ShloMosaic.Lib.ValueIdx
import Idealize.ShloMosaic.Lib.Pipeline.Value

noncomputable section

namespace Cert.KernelIdeal.RowValue

open Cert.KernelIdeal Cert.KernelIdeal.Gen Idealize.ShloMosaic Idealize.ShloMosaic.TcCoe Idealize.SL.Sem
open Idealize.ShloMosaic.ValueIdx Cert.Trapz

/-- The kernel's folded scale, as the idealized kernel reads it. -/
abbrev sc : EReal := Named.named (F := Ideal) κ "scale" (φ := .f32) 0x3BB281F1#32

theorem offset_zero : (![0, 0] : Fin 2 → Nat) = fun _ => 0 := funext fun a => by fin_cases a <;> rfl

/-- The vector unit's sum along a row of a `[512, 4096]` block, at row `p`, is the sum over the row's 4096 entries. -/
theorem lane_sum (v : FVec Ideal S512x4096 .f32) (p : Fin 512) :
    (multiReduction (F := Ideal) .add [1] S512 v 0x00000000#32 reduces_S512x4096_S512 (.inl rfl) rfl) (ix1 p)
      = ∑ k : Fin 4096, v (ix2 p k) := by
  refine (Ideal.multiReduction_add_single v 0x00000000#32 reduces_S512x4096_S512 (.inl rfl) rfl (ix1 p)).trans ?_
  exact Finset.sum_congr rfl fun k _ => congrArg v (funext fun a => Fin.ext (by match a with | ⟨0, _⟩ => rfl | ⟨1, _⟩ => rfl))

/-- What the body leaves at `(p, q)` of the output block, from the three input blocks: the kernel's row formula of
    their row `p`. -/
theorem block_row (x0 : Vec Ideal S512x3 .f32) (x1 : Vec Ideal S512x1 .f32) (x2 : Vec Ideal S512x4096 .f32)
    (p : Fin 512) (q : Fin 1) :
    out0_3 x0 x1 x2 (ix2 p q)
      = kernelRowE sc (x0 (ix2 p (0 : Fin 3))) (x1 (ix2 p (0 : Fin 1))) (fun k : Fin 4096 => x2 (ix2 p k)) := by
  have hq : q = 0 := Subsingleton.elim _ _
  subst hq
  unfold out0_3
  rw [Value.canon3_eq, View.ld_unit_zero (S := S512x4096) offset_zero, View.ld_unit_zero (S := S512x1) offset_zero]
  -- the seven places the block index is read, in coordinates
  have hA : View.ld x0 r0_2 (Value.ix3_0 (ix2 p (0 : Fin 1))) = x0 (ix2 p (0 : Fin 3)) := by
    show x0 _ = x0 _
    congr 1; funext a; apply Fin.ext
    match a with
    | ⟨0, _⟩ => show 0 + 1 * p.val = p.val; omega
    | ⟨1, _⟩ => show 0 + 1 * 0 = 0; rfl
  have hS : (multiReduction (F := Ideal) .add [1] S512 (log x2) 0x00000000#32 reduces_S512x4096_S512 (.inl rfl) rfl)
      (Value.ix3_1 (ix2 p (0 : Fin 1))) = ∑ k : Fin 4096, Ideal.log (x2 (ix2 p k)) := by
    have e : Value.ix3_1 (ix2 p (0 : Fin 1)) = ix1 p := funext fun a => Fin.ext (by match a with | ⟨0, _⟩ => rfl)
    rw [e]
    exact lane_sum (log (x2 : FVec Ideal S512x4096 .f32)) p
  have hT2 : Value.ix3_2 (ix2 p (0 : Fin 1)) = ix2 p (0 : Fin 1) :=
    funext fun a => Fin.ext (by match a with | ⟨0, _⟩ => rfl | ⟨1, _⟩ => rfl)
  have hT4 : Value.ix3_4 (ix2 p (0 : Fin 1)) = ix2 p (0 : Fin 1) :=
    funext fun a => Fin.ext (by match a with | ⟨0, _⟩ => rfl | ⟨1, _⟩ => rfl)
  have hT6 : Value.ix3_6 (ix2 p (0 : Fin 1)) = ix2 p (0 : Fin 1) :=
    funext fun a => Fin.ext (by match a with | ⟨0, _⟩ => rfl | ⟨1, _⟩ => rfl)
  have hC0 : Value.ix3_3 (ix2 p (0 : Fin 1)) = ix2 p (0 : Fin 4096) :=
    funext fun a => Fin.ext (by match a with | ⟨0, _⟩ => rfl | ⟨1, _⟩ => rfl)
  have hCl : Value.ix3_5 (ix2 p (0 : Fin 1)) = ix2 p (Fin.last 4095) :=
    funext fun a => Fin.ext (by match a with | ⟨0, _⟩ => rfl | ⟨1, _⟩ => rfl)
  unfold kernelRowE
  show ((View.ld x0 r0_2 (Value.ix3_0 (ix2 p (0 : Fin 1))) * Ideal.ofBits .f32 0x40A00000#32) * sc) *
    (((Ideal.ofBits .f32 0x40000000#32 * (Ideal.ofBits .f32 0xBD000000#32 *
          ((multiReduction (F := Ideal) .add [1] S512 (log x2) 0x00000000#32 reduces_S512x4096_S512 (.inl rfl) rfl)
              (Value.ix3_1 (ix2 p (0 : Fin 1)))
            - Ideal.ofBits .f32 0x45800000#32 * Ideal.log (x1 (Value.ix3_2 (ix2 p (0 : Fin 1))))))
        - Ideal.ofBits .f32 0xBD000000#32 * (Ideal.log (x2 (Value.ix3_3 (ix2 p (0 : Fin 1)))) - Ideal.log (x1 (Value.ix3_4 (ix2 p (0 : Fin 1))))))
        - Ideal.ofBits .f32 0xBD000000#32 * (Ideal.log (x2 (Value.ix3_5 (ix2 p (0 : Fin 1)))) - Ideal.log (x1 (Value.ix3_6 (ix2 p (0 : Fin 1))))))
      * Ideal.ofBits .f32 0x3F000000#32) = _
  rw [hA, hS, hT2, hT4, hT6, hC0, hCl]

end Cert.KernelIdeal.RowValue

end
-- ==== Proof.KernelValue.lean ====
/-
  From blocks to the array.  The grid has 8 points; point `t` reads rows `512 t … 512 t + 511` of `param`, `T10` and
  `cp` and writes back rows `512 t … 512 t + 511` of the result.  Row `p` of point `t`'s output block is the kernel's row
  formula of row `p` of its input blocks (KernelBlock), that is of row `512 t + p` of the arrays: point `t` writes back
  block `t` of `G`.  The 8 blocks cover the `[4096, 1]` result (row `r` lies in block `r / 512`), so after the run the
  result array is `G` of the argument arrays.
-/
import proofs.«164504_j1047972020561_2_alg».proof.Proof.KernelBlock

noncomputable section

namespace Cert.KernelIdeal.RowValue

open Cert.KernelIdeal Cert.KernelIdeal.Gen Idealize.ShloMosaic Idealize.ShloMosaic.TcCoe Idealize.SL.Sem
open Idealize.ShloMosaic.Pipeline (Dat)
open Idealize.ShloMosaic.ValueIdx Cert.Trapz

variable (m : (ℓ : Loc nD τ sig) → Buf (Elt Ideal) ℓ) (ρ : Dev nD → PrngReg)

/-- The index maps, decided over the 8 points: every window's block row is the output's, every block column is 0,
    and the block row is below 8. -/
theorem block_indices : ∀ t : Fin cfg0.N,
      win0_0.index t (0 : Fin 2) = win0_3.index t (0 : Fin 2)
    ∧ win0_1.index t (0 : Fin 2) = win0_3.index t (0 : Fin 2)
    ∧ win0_2.index t (0 : Fin 2) = win0_3.index t (0 : Fin 2)
    ∧ win0_0.index t (1 : Fin 2) = 0 ∧ win0_1.index t (1 : Fin 2) = 0 ∧ win0_2.index t (1 : Fin 2) = 0
    ∧ win0_3.index t (1 : Fin 2) = 0 ∧ win0_3.index t (0 : Fin 2) ≤ 7 :=
  (by decide +kernel : ∀ t : Fin grid0.N, _)

/-- Every block row below 8 is some point's. -/
theorem block_onto : ∀ q0 : Fin 8, ∃ t : Fin cfg0.N, win0_3.index t = ![q0.val, 0] :=
  (by decide +kernel : ∀ q0 : Fin 8, ∃ t : Fin grid0.N, win0_3.index t = ![q0.val, 0])

/-- What point `t` writes back is block `t` of `G` of the argument arrays. -/
theorem flushed_eq (c : Dev nD) (t : Fin cfg0.N) :
    (dats m 0 c).flushed 3 t
      = ((cfg0.win 3).blk t).view.read (Elt Ideal) (G sc (V m c main_arg0) (V m c main_arg1) (V m c main_arg2)) := by
  rw [Value.flushed3]
  obtain ⟨e0, e1, e2, z0, z1, z2, z3, -⟩ := block_indices t
  funext j
  obtain ⟨p, q, rfl⟩ : ∃ (p : Fin 512) (q : Fin 1), j = ix2 p q := ⟨j 0, j 1, eq_ix2 j⟩
  show out0_3 (iblk m c 0 t) (iblk m c 1 t) (iblk m c 2 t) (ix2 p q)
    = G sc (V m c main_arg0) (V m c main_arg1) (V m c main_arg2) (((cfg0.win 3).blk t).view.emb (ix2 p q))
  refine (block_row _ _ _ p q).trans ?_
  unfold G
  have hq : q.val = 0 := by have := q.isLt; omega
  have a0 : iblk m c 0 t (ix2 p (0 : Fin 3))
      = V m c main_arg0 (ix2 (rowOf (((cfg0.win 3).blk t).view.emb (ix2 p q))) (0 : Fin 3)) := by
    show V m c main_arg0 (((cfg0.win 0).blk t).view.emb (ix2 p (0 : Fin 3))) = _
    congr 1; funext a; apply Fin.ext
    match a with
    | ⟨0, _⟩ => show win0_0.index t (0 : Fin 2) * 512 + 1 * p.val = win0_3.index t (0 : Fin 2) * 512 + 1 * p.val; omega
    | ⟨1, _⟩ => show win0_0.index t (1 : Fin 2) * 3 + 1 * 0 = 0; omega
  have a1 : iblk m c 1 t (ix2 p (0 : Fin 1))
      = V m c main_arg1 (ix2 (rowOf (((cfg0.win 3).blk t).view.emb (ix2 p q))) (0 : Fin 1)) := by
    show V m c main_arg1 (((cfg0.win 1).blk t).view.emb (ix2 p (0 : Fin 1))) = _
    congr 1; funext a; apply Fin.ext
    match a with
    | ⟨0, _⟩ => show win0_1.index t (0 : Fin 2) * 512 + 1 * p.val = win0_3.index t (0 : Fin 2) * 512 + 1 * p.val; omega
    | ⟨1, _⟩ => show win0_1.index t (1 : Fin 2) * 1 + 1 * 0 = 0; omega
  have a2 : (fun k : Fin 4096 => iblk m c 2 t (ix2 p k))
      = fun k : Fin 4096 => V m c main_arg2 (ix2 (rowOf (((cfg0.win 3).blk t).view.emb (ix2 p q))) k) := by
    funext k
    show V m c main_arg2 (((cfg0.win 2).blk t).view.emb (ix2 p k)) = _
    congr 1; funext a; apply Fin.ext
    match a with
    | ⟨0, _⟩ => show win0_2.index t (0 : Fin 2) * 512 + 1 * p.val = win0_3.index t (0 : Fin 2) * 512 + 1 * p.val; omega
    | ⟨1, _⟩ => show win0_2.index t (1 : Fin 2) * 4096 + 1 * k.val = k.val; omega
  rw [a0, a1, a2]

/-- An index of the result is in point `t`'s block iff each coordinate is in the block's range on its axis. -/
theorem mem_block (t : Fin cfg0.N) (i : S4096x1.Idx) :
    i ∈ ((cfg0.win 3).blk t).view.set ↔ ∀ a : Fin 2, win0_3.index t a * S512x1.size a ≤ (i a).val
      ∧ (i a).val < win0_3.index t a * S512x1.size a + S512x1.size a := by
  show i ∈ ((View.whole main_v0).slice (win0_3.rect t)).set ↔ _
  rw [View.set_slice_whole, Rect.mem_set_unit]
  exact Iff.rfl

/-- The 8 blocks cover the result: row `r` is in the block of point `r / 512`. -/
theorem covered (i : S4096x1.Idx) :
    ∃ t : Fin cfg0.N, (cfg0.win 3).flush t = true ∧ i ∈ ((cfg0.win 3).blk t).view.set := by
  have hi0 : (i 0).val < 4096 := (i 0).isLt
  have hi1 : (i 1).val < 1 := (i 1).isLt
  obtain ⟨t, ht⟩ := block_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1 ≤ (i 1).val ∧ (i 1).val < win0_3.index t (1 : Fin 2) * 1 + 1; omega

/-- After the run the result array is `G` of the argument arrays. -/
theorem final (c : Dev nD) :
    (dats m 0 c).arrAt 3 cfg0.N = G sc (V m c main_arg0) (V m c main_arg1) (V m c main_arg2) :=
  (dats m 0 c).arrAt_eq_of_cover 3 _ (fun t _ => flushed_eq m c t) covered

/-- The kernel's run: every weakly fair execution ends with the result at `G` of the arguments, the arguments unchanged. -/
theorem run : θ_run defs (onTc (τ := τ) (main (F := Ideal))) ⟨m, fun _ => 0, ρ⟩ fun r => ∀ c : Dev nD,
      r.2.mem ((c : Thread nD τ).loc main_v0)
        = G sc (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.RowValue

end
-- ==== Proof.RefValue.lean ====
/-
  The reference's result, read one operation at a time, is `Rf`: at row `r` the five scale factors applied in turn to
  `5 · param (r, 0)`, times half the sum over `k < 4095` of `a (r, k) + a (r, k + 1)` with
  `a (r, t) = −(1/32) · log (cp (r, t) / T10 (r, 0))`.  The two slices `a[:, :-1]` and `a[:, 1:]` read column `k` and
  column `k + 1`; the broadcast of `T10` along the row reads its one column.
-/
import proofs.«164504_j1047972020561_2_alg».proof.Proof.Spec
import proofs.«164504_j1047972020561_2_alg».proof.Proof.Gen.ReferenceIdeal.Read

noncomputable section

namespace Cert.ReferenceIdeal.RowValue

open Cert.ReferenceIdeal Cert.ReferenceIdeal.Gen Cert.ReferenceIdeal.Read Idealize.ShloMosaic Idealize.ShloMosaic.TcCoe
open Idealize.ShloMosaic.ValueIdx Cert.Trapz

/-- The first column of `param` at the row of `i`. -/
theorem idx_param (i : S4096x1.Idx) : idx_main_v0 i = ix2 (rowOf i) (0 : Fin 3) :=
  funext fun a => Fin.ext (by
    match a with
    | ⟨0, _⟩ => rfl
    | ⟨1, _⟩ => show (i 1).val = 0; have h : (i 1).val < 1 := (i 1).isLt; omega)

/-- The left slice reads column `k` of the row. -/
theorem idx_left (i : S4096x1.Idx) (k : Fin 4095) :
    idx_main_v8 (idx_main_v11 (idx_main_v12 i) k) = ix2 (rowOf i) k.castSucc :=
  funext fun a => Fin.ext (by match a with | ⟨0, _⟩ => rfl | ⟨1, _⟩ => rfl)

/-- The right slice reads column `k + 1` of the row. -/
theorem idx_right (i : S4096x1.Idx) (k : Fin 4095) :
    idx_main_v9 (idx_main_v11 (idx_main_v12 i) k) = ix2 (rowOf i) k.succ :=
  funext fun a => Fin.ext (by
    match a with
    | ⟨0, _⟩ => rfl
    | ⟨1, _⟩ => show 1 + k.val = k.val + 1; omega)

/-- `T10` broadcast along a row reads its one column at that row. -/
theorem idx_T10 (r : Fin 4096) (k : Fin 4096) : idx_main_v3 (ix2 r k) = ix2 r (0 : Fin 1) :=
  funext fun a => Fin.ext (by match a with | ⟨0, _⟩ => rfl | ⟨1, _⟩ => rfl)

/-- The reference's result stage is `Rf` of the three arrays it reads. -/
theorem result_eq (x0 : (⟨S4096x3, .f32⟩ : BufTy).Contents (Elt Ideal)) (x1 : (⟨S4096x1, .f32⟩ : BufTy).Contents (Elt Ideal))
    (x2 : (⟨S4096x4096, .f32⟩ : BufTy).Contents (Elt Ideal)) :
    val_main_v25 (F := Ideal) x0 x1 x2 = Rf x0 x1 x2 := by
  funext i
  unfold Rf referenceRowE
  simp only [val_main_v25_apply, val_main_v24_apply, val_main_v22_apply, val_main_v20_apply, val_main_v18_apply,
    val_main_v16_apply, val_main_v2_apply, val_main_v0_apply, val_main_v1_apply, val_main_cst_apply,
    val_main_v15_apply, val_main_cst_3_apply, val_main_v17_apply, val_main_cst_4_apply, val_main_v19_apply,
    val_main_cst_5_apply, val_main_v21_apply, val_main_cst_6_apply, val_main_v23_apply, val_main_cst_7_apply,
    val_main_v14_apply, val_main_v12_apply, val_main_v11_apply, val_main_cst_1_apply, val_main_v13_apply,
    val_main_cst_2_apply, val_main_v10_apply, val_main_v8_apply, val_main_v9_apply, val_main_v7_apply,
    val_main_v6_apply, val_main_cst_0_apply, val_main_v5_apply, val_main_v4_apply, val_main_v3_apply,
    idx_param, idx_left, idx_right, idx_T10,
    Ideal.mulf_def, Ideal.addf_def, Ideal.hostDivf_def, Ideal.hostUnary_log_def, Ideal.ofBits_def]

end Cert.ReferenceIdeal.RowValue

end
-- ==== Proof.PreDecode.lean ====
/-
  The precondition, read entry by entry.  It is a conjunction of six `all`s: the magnitude of every entry of the four
  inputs is below `+∞`, and every entry of `T10` and of `cp` is above `0`.  An extended real whose magnitude
  `max x (−x)` is below `+∞` is a real; so every entry of `param` is a real and every entry of `T10` and of `cp` is a
  positive real.  (The fourth input is constrained too, and never read by either program.)
-/
import proofs.«164504_j1047972020561_2_alg».proof.Pre_finite_inputs
import proofs.«164504_j1047972020561_2_alg».proof.Proof.Gen.Pre_finite_inputs
import proofs.«164504_j1047972020561_2_alg».proof.Proof.Consts
import Idealize.ShloMosaic.PureOps.Ideal.Laws
import Idealize.ShloMosaic.Lib.ReduceAll
import Idealize.ShloMosaic.Lib.Affine
import Idealize.ShloMosaic.Lib.ValueIdx

noncomputable section

namespace Cert.Pre_finite_inputs.Decode

open Cert.Pre_finite_inputs Idealize.ShloMosaic Idealize.ShloMosaic.ValueIdx

variable [Facts]
open Facts

instance : Subsingleton S_.Idx := ⟨fun a b => funext fun d => d.elim0⟩

/-- A comparison `x < y` that answers 1 holds. -/
theorem lt_of_cmp_olt {x y : EReal} (h : Ideal.cmp .olt x y = 1#1) : x < y := by
  by_contra hn
  have e : Ideal.cmp .olt x y = 0#1 := by simp [Ideal.cmp, hn]
  rw [e] at h
  exact absurd h (by decide)

/-- A comparison `x > y` that answers 1 holds. -/
theorem lt_of_cmp_ogt {x y : EReal} (h : Ideal.cmp .ogt x y = 1#1) : y < x := by
  by_contra hn
  have e : Ideal.cmp .ogt x y = 0#1 := by simp [Ideal.cmp, hn]
  rw [e] at h
  exact absurd h (by decide)

/-- An extended real of magnitude below `+∞` is a real. -/
theorem real_of_abs_lt_top {x : EReal} (h : max x (-x) < ⊤) : ∃ r : ℝ, x = (r : EReal) := by
  induction x using EReal.rec with
  | bot => simp at h
  | coe r => exact ⟨r, rfl⟩
  | top => simp at h

/-- The precondition gives: `param` real, `T10` and `cp` positive reals, entry by entry. -/
theorem decode (a0 : FVec Ideal S4096x3 .f32) (a1 : FVec Ideal S4096x1 .f32) (a2 a3 : FVec Ideal S4096x4096 .f32)
    (h : fn (F := Ideal) a0 a1 a2 a3 = fun _ => 1#1) :
    (∀ j, ∃ r : ℝ, a0 j = (r : EReal)) ∧ (∀ j, ∃ r : ℝ, 0 < r ∧ a1 j = (r : EReal))
      ∧ (∀ j, ∃ r : ℝ, 0 < r ∧ a2 j = (r : EReal)) := by
  have e := congrFun h ix0
  unfold fn fn_part1 at e
  simp only [andi, IntOp.andi_eq_one] at e
  obtain ⟨⟨⟨⟨⟨h3, h7⟩, h12⟩, -⟩, h21⟩, h25⟩ := e
  have fin0 : ∀ j, ∃ r : ℝ, a0 j = (r : EReal) := fun j => by
    have g : Ideal.cmp .olt (max (a0 j) (-(a0 j))) (Ideal.ofBits .f32 0x7F800000#32) = 1#1 :=
      Host.reduce_andi_all _ _ _ _ ix0 h3 j
    have l := lt_of_cmp_olt g
    rw [Cert.Trapz.Consts.w_inf] at l
    exact real_of_abs_lt_top l
  have fin1 : ∀ j, ∃ r : ℝ, a1 j = (r : EReal) := fun j => by
    have g : Ideal.cmp .olt (max (a1 j) (-(a1 j))) (Ideal.ofBits .f32 0x7F800000#32) = 1#1 :=
      Host.reduce_andi_all _ _ _ _ ix0 h7 j
    have l := lt_of_cmp_olt g
    rw [Cert.Trapz.Consts.w_inf] at l
    exact real_of_abs_lt_top l
  have fin2 : ∀ j, ∃ r : ℝ, a2 j = (r : EReal) := fun j => by
    have g : Ideal.cmp .olt (max (a2 j) (-(a2 j))) (Ideal.ofBits .f32 0x7F800000#32) = 1#1 :=
      Host.reduce_andi_all _ _ _ _ ix0 h12 j
    have l := lt_of_cmp_olt g
    rw [Cert.Trapz.Consts.w_inf] at l
    exact real_of_abs_lt_top l
  refine ⟨fin0, fun j => ?_, fun j => ?_⟩
  · obtain ⟨r, hr⟩ := fin1 j
    have g : Ideal.cmp .ogt (a1 j) (Ideal.ofBits .f32 0x00000000#32) = 1#1 :=
      Host.reduce_andi_all _ _ _ _ ix0 h21 j
    have l := lt_of_cmp_ogt g
    rw [Cert.Trapz.Consts.w_zero, hr, EReal.coe_lt_coe_iff] at l
    exact ⟨r, l, hr⟩
  · obtain ⟨r, hr⟩ := fin2 j
    have g : Ideal.cmp .ogt (a2 j) (Ideal.ofBits .f32 0x00000000#32) = 1#1 :=
      Host.reduce_andi_all _ _ _ _ ix0 h25 j
    have l := lt_of_cmp_ogt g
    rw [Cert.Trapz.Consts.w_zero, hr, EReal.coe_lt_coe_iff] at l
    exact ⟨r, l, hr⟩

end Cert.Pre_finite_inputs.Decode

end
-- ==== Proof.lean ====
/-
  A trapezoid-rule integral of a logarithmic signal, row by row.  For each of 4096 voxels (rows) with concentrations
  `cp (r, ·)` over 4096 time points, relaxation time `T10 (r, 0)` and first perfusion parameter `param (r, 0)`, put
  `a (r, t) = −(1/32) · log (cp (r, t) / T10 (r, 0))`.  The reference returns

      5 · param (r, 0) / 100 · 1.04 / 1.4 · 0.55 / 0.75 · ( ∑_{t < 4095} (a (r, t) + a (r, t + 1)) ) · ½ ,

  the trapezoid rule with unit step.  The kernel computes, 512 rows per grid point,

      (5 · param (r, 0) · s) · ( 2 · A − a₀ − a₄₀₉₅ ) · ½ ,   A = −(1/32) (∑_t log cp (r, t) − 4096 · log T10 (r, 0)),
      a₀, a₄₀₉₅ = −(1/32) (log cp (r, 0 | 4095) − log T10 (r, 0)),

  with `s` one folded constant.  Three facts join them, all on real numbers:
  * `log (x / y) = log x − log y` for positive `x, y` — the precondition makes every `cp` and `T10` entry a positive
    real, so every logarithm is a real and nothing below leaves the reals (RowIdeal);
  * the sum of adjacent pairs telescopes, `∑_{t < n} (f t + f (t+1)) = 2 ∑_{t ≤ n} f t − f 0 − f n` (LibTrapezoid);
  * `s`, read as the product of the reference's five factors, each the exact fraction its float word encodes
    (Consts `scale_eq`), makes the two scalings one (RowLaw).
  The kernel's 8 output blocks tile the result (KernelValue); the reference's operations are read one at a time
  (RefValue); the precondition is opened entry by entry (PreDecode).
-/
import proofs.«164504_j1047972020561_2_alg».proof.Defs
import proofs.«164504_j1047972020561_2_alg».proof.Proof.Gen.Kernel
import proofs.«164504_j1047972020561_2_alg».proof.Proof.Gen.Kernel.Skeleton
import proofs.«164504_j1047972020561_2_alg».proof.Proof.Gen.Kernel.Launch
import proofs.«164504_j1047972020561_2_alg».proof.Proof.Gen.Kernel.Points
import proofs.«164504_j1047972020561_2_alg».proof.Proof.Gen.Kernel.Frame
import proofs.«164504_j1047972020561_2_alg».proof.Proof.Gen.KernelIdeal
import proofs.«164504_j1047972020561_2_alg».proof.Proof.Gen.KernelIdeal.Skeleton
import proofs.«164504_j1047972020561_2_alg».proof.Proof.Gen.KernelIdeal.Launch
import proofs.«164504_j1047972020561_2_alg».proof.Proof.Gen.KernelIdeal.Points
import proofs.«164504_j1047972020561_2_alg».proof.Proof.Gen.KernelIdeal.Frame
import proofs.«164504_j1047972020561_2_alg».proof.Proof.Gen.KernelIdeal.Value
import proofs.«164504_j1047972020561_2_alg».proof.Proof.Gen.ReferenceIdeal.Run
import proofs.«164504_j1047972020561_2_alg».proof.Proof.Gen.ReferenceIdeal.Read
import proofs.«164504_j1047972020561_2_alg».proof.Proof.Gen.ReferenceIdeal
import proofs.«164504_j1047972020561_2_alg».proof.Proof.Gen.Pre_finite_inputs
import proofs.«164504_j1047972020561_2_alg».proof.Proof.KernelValue
import proofs.«164504_j1047972020561_2_alg».proof.Proof.RefValue
import proofs.«164504_j1047972020561_2_alg».proof.Proof.PreDecode
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_kernel : @Cert.frame_Kernel Cert.Kernel.Gen.facts Cert.Pre_finite_inputs.Gen.facts :=
  fun m ρ _ => Cert.Kernel.Gen.frame m ρ

/-- So does the kernel read over the extended reals. -/
theorem frame_kernelIdeal : @Cert.frame_KernelIdeal Cert.KernelIdeal.Gen.facts Cert.Pre_finite_inputs.Gen.facts :=
  fun m ρ _ => Cert.KernelIdeal.Gen.frame m ρ

/-- And the reference: its run, with the result dropped. -/
theorem frame_reference : @Cert.frame_ReferenceIdeal Cert.ReferenceIdeal.Gen.facts Cert.Pre_finite_inputs.Gen.facts :=
  fun m ρ _ =>
    (θ_run Cert.ReferenceIdeal.defs _ _).mono (fun _ h c => (h c).2) (Cert.ReferenceIdeal.Value.run (F := Ideal) m ρ)

/-- The kernel's folded scale denotes the product of the reference's five factors, by the certificate's table. -/
theorem scale_named : Cert.KernelIdeal.RowValue.sc = Cert.Trapz.scaleValue :=
  IdealRules.named_const.ideal_named_scalar _ _ _ _ rfl

/-- The one rewrite of the idealization: the folded scale is printed as its name, whose value the table gives. -/
theorem preserves : Cert.preserves_Kernel_KernelIdeal :=
  IdealRules.named_const.statement Cert.KernelIdeal.κ "scale" .f32 0x3BB281F1#32
    ((3354243422137 / 615726501068800 : ℝ) : EReal) rfl

/-- Over the extended reals, from memories that agree on the arguments, the kernel ends with the result at `G` of the
    arguments and the reference at `Rf` of them; under the precondition `param` is real and `T10`, `cp` are positive
    reals, where `Rf = G`. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨_, Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  obtain ⟨hp, hT, hc⟩ := Cert.Pre_finite_inputs.Decode.decode _ _ _ _ (hpre c)
  rw [Cert.ReferenceIdeal.Read.val_main_v25_eq, Cert.ReferenceIdeal.RowValue.result_eq,
    (hagree c).1, (hagree c).2.1, (hagree c).2.2.1, scale_named]
  exact Cert.Trapz.Rf_eq_G _ _ _ hp hT hc

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
